-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3x16x64 : Shape := ⟨5, ![4, 4096, 3, 16, 64]⟩
abbrev S4x4096 : Shape := ⟨2, ![4, 4096]⟩
abbrev S_ : Shape := ⟨0, ![]⟩

class Facts : Prop where
  bcast_S_S4x4096x3x16x64 : S_.BroadcastsInDim S4x4096x3x16x64 (![] : Fin 0 → Fin S4x4096x3x16x64.rank)
  reducesTo_S4x4096x3x16x64_S_d0_1_2_3_4 : S4x4096x3x16x64.ReducesTo [0, 1, 2, 3, 4] S_
  h_S_ : 0 < S_.numel

variable [Facts]

def fn {F : FTy → Type} [FloatOps F] (main_arg0 : FVec F S4x4096x3x16x64 .f32) (main_arg1 : IVec S4x4096 1) : IVec S_ 1 :=
  let main_v0 : FVec F S4x4096x3x16x64 .f32 := Host.absf main_arg0
  let main_cst : FVec F S_ .f32 := constant S_ .f32 0x7F800000#32
  let main_v1 : FVec F S4x4096x3x16x64 .f32 := broadcastInDim S4x4096x3x16x64 ![] bcast_S_S4x4096x3x16x64 main_cst
  let main_v2 : IVec S4x4096x3x16x64 1 := cmpf .olt main_v0 main_v1
  let main_c : IVec S_ 1 := constantI S_ 1 1#1
  let main_v3 : IVec S_ 1 := (fun x v => Host.reduce IntOp.andi x v reducesTo_S4x4096x3x16x64_S_d0_1_2_3_4 h_S_) main_v2 main_c
  main_v3
-- ==== Kernel.lean ====
abbrev S4x4096x3x16x64 : Shape := ⟨5, ![4, 4096, 3, 16, 64]⟩
abbrev S4x4096 : Shape := ⟨2, ![4, 4096]⟩
abbrev S4x4096x1x16x64 : Shape := ⟨5, ![4, 4096, 1, 16, 64]⟩
abbrev S4x4096x16x64 : Shape := ⟨4, ![4, 4096, 16, 64]⟩
abbrev S16384x16x64 : Shape := ⟨3, ![16384, 16, 64]⟩
abbrev S16384x1x1 : Shape := ⟨3, ![16384, 1, 1]⟩
abbrev S1024x16x64 : Shape := ⟨3, ![1024, 16, 64]⟩
abbrev S1024x1x1 : Shape := ⟨3, ![1024, 1, 1]⟩
abbrev S1024x16x16 : Shape := ⟨3, ![1024, 16, 16]⟩
abbrev S1024x16 : Shape := ⟨2, ![1024, 16]⟩
abbrev S1024x16x1 : Shape := ⟨3, ![1024, 16, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x4096x3x16x64, .f32⟩
  | .hbm, ⟨1, _⟩ => ⟨S4x4096, .i1⟩
  | .hbm, ⟨2, _⟩ => ⟨S4x4096x1x16x64, .f32⟩
  | .hbm, ⟨3, _⟩ => ⟨S4x4096x16x64, .f32⟩
  | .hbm, ⟨4, _⟩ => ⟨S4x4096x1x16x64, .f32⟩
  | .hbm, ⟨5, _⟩ => ⟨S4x4096x16x64, .f32⟩
  | .hbm, ⟨6, _⟩ => ⟨S4x4096x1x16x64, .f32⟩
  | .hbm, ⟨7, _⟩ => ⟨S4x4096x16x64, .f32⟩
  | .hbm, ⟨8, _⟩ => ⟨S16384x16x64, .f32⟩
  | .hbm, ⟨9, _⟩ => ⟨S16384x16x64, .f32⟩
  | .hbm, ⟨10, _⟩ => ⟨S16384x16x64, .f32⟩
  | .hbm, ⟨11, _⟩ => ⟨S16384x1x1, .i1⟩
  | .hbm, ⟨12, _⟩ => ⟨S16384x1x1, .f32⟩
  | .hbm, ⟨13, _⟩ => ⟨S16384x16x64, .f32⟩
  | .hbm, ⟨14, _⟩ => ⟨S4x4096x16x64, .f32⟩
  | .local _ .vmem, ⟨0, _⟩ => ⟨S1024x16x64, .f32⟩
  | .local _ .vmem, ⟨1, _⟩ => ⟨S1024x16x64, .f32⟩
  | .local _ .vmem, ⟨2, _⟩ => ⟨S1024x16x64, .f32⟩
  | .local _ .vmem, ⟨3, _⟩ => ⟨S1024x16x64, .f32⟩
  | .local _ .vmem, ⟨4, _⟩ => ⟨S1024x16x64, .f32⟩
  | .local _ .vmem, ⟨5, _⟩ => ⟨S1024x16x64, .f32⟩
  | .local _ .vmem, ⟨6, _⟩ => ⟨S1024x1x1, .f32⟩
  | .local _ .vmem, ⟨7, _⟩ => ⟨S1024x1x1, .f32⟩
  | .local _ .vmem, ⟨8, _⟩ => ⟨S1024x16x64, .f32⟩
  | .local _ .vmem, ⟨9, _⟩ => ⟨S1024x16x64, .f32⟩
  | _, _ => ⟨S4x4096x3x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x4096x3x16x64_S4x4096x1x16x64_0_0_0_0_0 : S4x4096x3x16x64.Slices ![0, 0, 0, 0, 0] S4x4096x1x16x64
  shapeCasts_S4x4096x1x16x64_S4x4096x16x64 : S4x4096x1x16x64.ShapeCasts S4x4096x16x64
  slices_S4x4096x3x16x64_S4x4096x1x16x64_0_0_1_0_0 : S4x4096x3x16x64.Slices ![0, 0, 1, 0, 0] S4x4096x1x16x64
  slices_S4x4096x3x16x64_S4x4096x1x16x64_0_0_2_0_0 : S4x4096x3x16x64.Slices ![0, 0, 2, 0, 0] S4x4096x1x16x64
  shapeCasts_S4x4096x16x64_S16384x16x64 : S4x4096x16x64.ShapeCasts S16384x16x64
  shapeCasts_S4x4096_S16384x1x1 : S4x4096.ShapeCasts S16384x1x1
  inb_S1024x16x64_S1024x16x64_0_0_0 : ∀ a, (![0, 0, 0] : Fin 3 → Nat) a + S1024x16x64.size a ≤ S1024x16x64.size a
  h_S1024x16x64 : 0 < S1024x16x64.numel
  shapeCasts_S1024x16x64_S1024x16x64 : S1024x16x64.ShapeCasts S1024x16x64
  reduces_S1024x16x16_S1024x16 : S1024x16x16.Reduces [2] S1024x16
  shapeCasts_S1024x16_S1024x16x1 : S1024x16.ShapeCasts S1024x16x1
  broadcasts_S1024x16x1_S1024x16x16 : S1024x16x1.Broadcasts S1024x16x16
  inb_S1024x1x1_S1024x1x1_0_0_0 : ∀ a, (![0, 0, 0] : Fin 3 → Nat) a + S1024x1x1.size a ≤ S1024x1x1.size a
  h_S1024x1x1 : 0 < S1024x1x1.numel
  shapeCasts_S1024x1x1_S1024x1x1 : S1024x1x1.ShapeCasts S1024x1x1
  broadcasts_S1024x1x1_S1024x16x64 : S1024x1x1.Broadcasts S1024x16x64
  shapeCasts_S16384x16x64_S4x4096x16x64 : S16384x16x64.ShapeCasts S4x4096x16x64
  dot_S1024x16x64_S1024x16x64_S1024x16x16_2_2_1_1_0_0_wf : DotDims.WF S1024x16x64 S1024x16x64 S1024x16x16 [2] [2] [1] [1] [0] [0]
  dot_S1024x16x16_S1024x16x64_S1024x16x64_2_1_1_2_0_0_wf : DotDims.WF S1024x16x16 S1024x16x64 S1024x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x64.size a ≤ S16384x16x64.size a
  hwx0_0 : ∀ i : grid0.Coords, EltTy.bits .f32 = 32 ∨ (Rect.block (s := S16384x16x64) S1024x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16x64.size a ≤ S16384x16x64.size a
  hwx0_1 : ∀ i : grid0.Coords, EltTy.bits .f32 = 32 ∨ (Rect.block (s := S16384x16x64) S1024x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16x64.size a ≤ S16384x16x64.size a
  hwx0_2 : ∀ i : grid0.Coords, EltTy.bits .f32 = 32 ∨ (Rect.block (s := S16384x16x64) S1024x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1x1.size a ≤ S16384x1x1.size a
  hwx0_3 : ∀ i : grid0.Coords, EltTy.bits .f32 = 32 ∨ (Rect.block (s := S16384x1x1) S1024x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16x64.size a ≤ S16384x16x64.size a
  hwx0_4 : ∀ i : grid0.Coords, EltTy.bits .f32 = 32 ∨ (Rect.block (s := S16384x16x64) S1024x16x64.size (cc0_transform_4 i) (hinb0_4 i)).WholeWords (EltTy.packing .f32)

variable [Facts₀]

def dot_S1024x16x64_S1024x16x64_S1024x16x16_2_2_1_1_0_0 : DotDims S1024x16x64 S1024x16x64 S1024x16x16 where
  lhsContracting := [2]
  rhsContracting := [2]
  lhsNonContracting := [1]
  rhsNonContracting := [1]
  lhsBatch := [0]
  rhsBatch := [0]
  wf := dot_S1024x16x64_S1024x16x64_S1024x16x16_2_2_1_1_0_0_wf
def dot_S1024x16x16_S1024x16x64_S1024x16x64_2_1_1_2_0_0 : DotDims S1024x16x16 S1024x16x64 S1024x16x64 where
  lhsContracting := [2]
  rhsContracting := [1]
  lhsNonContracting := [1]
  rhsNonContracting := [2]
  lhsBatch := [0]
  rhsBatch := [0]
  wf := dot_S1024x16x16_S1024x16x64_S1024x16x64_2_1_1_2_0_0_wf

abbrev win0_0 : Pipeline.Window sig grid0 :=
  Pipeline.Window.ofSpec (Memref.whole main_v6) S1024x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x16x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x3x16x64 : Shape := ⟨5, ![4, 4096, 3, 16, 64]⟩
abbrev S4x4096 : Shape := ⟨2, ![4, 4096]⟩
abbrev S4x4096x1x16x64 : Shape := ⟨5, ![4, 4096, 1, 16, 64]⟩
abbrev S4x4096x16x64 : Shape := ⟨4, ![4, 4096, 16, 64]⟩
abbrev S4x4096x16x16 : Shape := ⟨4, ![4, 4096, 16, 16]⟩
abbrev S_ : Shape := ⟨0, ![]⟩
abbrev S4x4096x16 : Shape := ⟨3, ![4, 4096, 16]⟩
abbrev S4x4096x16x1 : Shape := ⟨4, ![4, 4096, 16, 1]⟩
abbrev S4x4096x1x1 : Shape := ⟨4, ![4, 4096, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x3x16x64, .f32⟩
  | .hbm, ⟨1, _⟩ => ⟨S4x4096, .i1⟩
  | .hbm, ⟨2, _⟩ => ⟨S4x4096x1x16x64, .f32⟩
  | .hbm, ⟨3, _⟩ => ⟨S4x4096x16x64, .f32⟩
  | .hbm, ⟨4, _⟩ => ⟨S4x4096x1x16x64, .f32⟩
  | .hbm, ⟨5, _⟩ => ⟨S4x4096x16x64, .f32⟩
  | .hbm, ⟨6, _⟩ => ⟨S4x4096x1x16x64, .f32⟩
  | .hbm, ⟨7, _⟩ => ⟨S4x4096x16x64, .f32⟩
  | .hbm, ⟨8, _⟩ => ⟨S4x4096x16x16, .f32⟩
  | .hbm, ⟨9, _⟩ => ⟨S_, .f32⟩
  | .hbm, ⟨10, _⟩ => ⟨S4x4096x16x16, .f32⟩
  | .hbm, ⟨11, _⟩ => ⟨S4x4096x16x16, .f32⟩
  | .hbm, ⟨12, _⟩ => ⟨S_, .f32⟩
  | .hbm, ⟨13, _⟩ => ⟨S4x4096x16, .f32⟩
  | .hbm, ⟨14, _⟩ => ⟨S_, .f32⟩
  | .hbm, ⟨15, _⟩ => ⟨S4x4096x16, .f32⟩
  | .hbm, ⟨16, _⟩ => ⟨S4x4096x16, .f32⟩
  | .hbm, ⟨17, _⟩ => ⟨S4x4096x16x1, .f32⟩
  | .hbm, ⟨18, _⟩ => ⟨S4x4096x16x16, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S4x4096x16x1, .f32⟩
  | .hbm, ⟨24, _⟩ => ⟨S4x4096x16x16, .f32⟩
  | .hbm, ⟨25, _⟩ => ⟨S4x4096x16x16, .f32⟩
  | .hbm, ⟨26, _⟩ => ⟨S4x4096x16x64, .f32⟩
  | .hbm, ⟨27, _⟩ => ⟨S4x4096x1x1, .i1⟩
  | .hbm, ⟨28, _⟩ => ⟨S4x4096x1x1, .f32⟩
  | .hbm, ⟨29, _⟩ => ⟨S4x4096x16x64, .f32⟩
  | .hbm, ⟨30, _⟩ => ⟨S4x4096x16x64, .f32⟩
  | _, _ => ⟨S4x4096x3x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  slices_S4x4096x3x16x64_S4x4096x1x16x64_0_0_0_0_0 : S4x4096x3x16x64.Slices ![0, 0, 0, 0, 0] S4x4096x1x16x64
  shapeCasts_S4x4096x1x16x64_S4x4096x16x64 : S4x4096x1x16x64.ShapeCasts S4x4096x16x64
  slices_S4x4096x3x16x64_S4x4096x1x16x64_0_0_1_0_0 : S4x4096x3x16x64.Slices ![0, 0, 1, 0, 0] S4x4096x1x16x64
  slices_S4x4096x3x16x64_S4x4096x1x16x64_0_0_2_0_0 : S4x4096x3x16x64.Slices ![0, 0, 2, 0, 0] S4x4096x1x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  bcast_S4x4096_S4x4096x1x1_0_1 : S4x4096.BroadcastsInDim S4x4096x1x1 (![0, 1] : Fin 2 → Fin S4x4096x1x1.rank)
  bcast_S4x4096x1x1_S4x4096x16x64_0_1_2_3 : S4x4096x1x1.BroadcastsInDim S4x4096x16x64 (![0, 1, 2, 3] : Fin 4 → Fin S4x4096x16x64.rank)
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]

variable [Facts₀]

def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf

class Facts : Prop extends Facts₀ where

variable [Facts]
-- ==== Proof.Attention.lean ====
/-
  Per-token attention over the heads axis, as one function on the extended reals.

  A token carries three 16 × 64 matrices q, k, v (16 heads, 64 features) and one mask value. Its result is
  the 16 × 64 matrix

      out h d = (∑ g, p h g · v g d) · mask,     p h g = w h g / ∑ g', w h g',
      w h g = exp (s h g − M h),                 M h = max (−∞) (max over g of s h g, from −∞),
      s h g = (∑ d, q h d · k g d) · 2⁻³

  — a softmax over the second heads index of the scaled products of rows of q with rows of k, applied to v and
  multiplied by the token's mask. The scale 2⁻³ = 1/√64 and −∞ are kept as the f32 words both programs carry, so
  neither is ever evaluated. Every operation is the extended reals' own (Ideal.exp, Ideal.div); nothing here
  needs the entries to be finite, because both programs apply the same operations in the same order and differ only in
  how they lay the tokens out.

  `G` is the whole result array: entry (b, s, h, d) is the attention of token (b, s), whose q, k, v are the
  three slices qkv (b, s, 0 | 1 | 2, ·, ·) and whose mask value is the bit mask (b, s) as a float.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The scale 2⁻³ = 1/√64, as its f32 word. -/
def scale : EReal := Ideal.ofBits .f32 0x3E000000#32
/-- −∞, as its f32 word: where both row maxima start. -/
def negInf : EReal := Ideal.ofBits .f32 0xFF800000#32

/-- The scaled product of row `h` of `q` with row `g` of `k`. -/
def score (q k : Fin 16 → Fin 64 → EReal) (h g : Fin 16) : EReal := (∑ d : Fin 64, q h d * k g d) * scale

/-- The largest score of row `h` (taken from −∞, and once more against −∞, as both programs do). -/
def rowMax (q k : Fin 16 → Fin 64 → EReal) (h : Fin 16) : EReal :=
  max negInf ((Finset.univ : Finset (Fin 16)).fold max negInf (fun g => score q k h g))

/-- The unnormalized softmax weight. -/
def weight (q k : Fin 16 → Fin 64 → EReal) (h g : Fin 16) : EReal := Ideal.exp (score q k h g - rowMax q k h)

/-- The normalized weight. -/
def prob (q k : Fin 16 → Fin 64 → EReal) (h g : Fin 16) : EReal :=
  Ideal.div (weight q k h g) (∑ g' : Fin 16, weight q k h g')

/-- One token's result. -/
def attn (q k v : Fin 16 → Fin 64 → EReal) (mk : EReal) (h : Fin 16) (d : Fin 64) : EReal :=
  (∑ g : Fin 16, prob q k h g * v g d) * mk

/-- The whole result array from the two argument arrays. -/
def G (qkv : (⟨5, ![4, 4096, 3, 16, 64]⟩ : Shape).Idx → EReal) (mask : (⟨2, ![4, 4096]⟩ : Shape).Idx → BitVec 1)
    (i : (⟨4, ![4, 4096, 16, 64]⟩ : Shape).Idx) : EReal :=
  attn (fun h d => qkv (ix5 (i 0) (i 1) (0 : Fin 3) h d)) (fun h d => qkv (ix5 (i 0) (i 1) (1 : Fin 3) h d))
    (fun h d => qkv (ix5 (i 0) (i 1) (2 : Fin 3) h d))
    (FloatOps.uitofp (F := Ideal) .f32 (mask (ix2 (i 0) (i 1)))) (i 2) (i 3)

end Cert.Attention

end
-- ==== Proof.HostPrefix.lean ====
/-
  What the region finds in its four input arrays, read at an index.

  Before the region the program cuts the packed array qkv[4, 4096, 3, 16, 64] into its three parts along axis 2,
  drops that unit axis and flattens the two token axes: array p (p = 0, 1, 2 for q, k, v) at (n, h, d), with
  n = 4096·b + s, is qkv (b, s, p, h, d). The mask bits [4, 4096] are flattened the same way to [16384, 1, 1] and
  converted to floats: the entry at (n, 0, 0) is the float of bit (b, s). Each is two row-major reshapes over a
  unit-stride slice, so the statement is one equation between row-major positions.
-/
import proofs.«148135_j14851996909855_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- Part `p` of the packed array, flattened over the tokens: slice, drop the unit axis, flatten. -/
def part (off : Fin 5 → Nat) (hs : S4x4096x3x16x64.Slices off S4x4096x1x16x64)
    (x : S4x4096x3x16x64.Idx → Elt F .f32) : S16384x16x64.Idx → Elt F .f32 :=
  shapeCast S16384x16x64 (shapeCast S4x4096x16x64 (extractStridedSlice S4x4096x1x16x64 off x hs)
    shapeCasts_S4x4096x1x16x64_S4x4096x16x64) shapeCasts_S4x4096x16x64_S16384x16x64

/-- Its entry at token n = 4096·b + s is the packed array's at (b, s, p, ·, ·). -/
theorem part_apply (off : Fin 5 → Nat) (hs : S4x4096x3x16x64.Slices off S4x4096x1x16x64) (p : Fin 3)
    (hoff : off = ![0, 0, p.val, 0, 0])
    (x : S4x4096x3x16x64.Idx → Elt F .f32) (b : Fin 4) (s : Fin 4096) (n : Fin 16384) (hn : n.val = b.val * 4096 + s.val)
    (h : Fin 16) (d : Fin 64) :
    part off hs x (ix3 n h d) = x (ix5 b s p h d) := by
  subst hoff
  unfold part
  have hb := b.isLt; have hs' := s.isLt; have hh := h.isLt; have hd := d.isLt
  rw [shapeCast_apply _ shapeCasts_S4x4096x16x64_S16384x16x64 (ix3 n h d) (ix4 b s h d)
      (by rw [Shape.rowMajor_val_four, Shape.rowMajor_val_three]
          show ((b.val * 4096 + s.val) * 16 + h.val) * 64 + d.val = (n.val * 16 + h.val) * 64 + d.val
          rw [hn]),
    shapeCast_apply _ shapeCasts_S4x4096x1x16x64_S4x4096x16x64 (ix4 b s h d) (ix5 b s (0 : Fin 1) h d)
      (by rw [Shape.rowMajor_val_five, Shape.rowMajor_val_four]
          show (((b.val * 4096 + s.val) * 1 + 0) * 16 + h.val) * 64 + d.val = ((b.val * 4096 + s.val) * 16 + h.val) * 64 + d.val
          omega)]
  exact extractStridedSlice_apply _ x hs (ix5 b s (0 : Fin 1) h d) (ix5 b s p h d) (fun a => by
    match a with
    | ⟨0, _⟩ => show b.val = 0 + b.val; omega
    | ⟨1, _⟩ => show s.val = 0 + s.val; omega
    | ⟨2, _⟩ => show p.val = p.val + 0; omega
    | ⟨3, _⟩ => show h.val = 0 + h.val; omega
    | ⟨4, _⟩ => show d.val = 0 + d.val; omega)

/-- The mask bits flattened over the tokens and converted to floats. -/
def maskCol (x : S4x4096.Idx → Elt F .i1) : S16384x1x1.Idx → Elt F .f32 :=
  uitofp .f32 (shapeCast S16384x1x1 x shapeCasts_S4x4096_S16384x1x1)

theorem maskCol_apply (x : S4x4096.Idx → Elt F .i1) (b : Fin 4) (s : Fin 4096) (n : Fin 16384) (hn : n.val = b.val * 4096 + s.val) :
    maskCol x (ix3 n (0 : Fin 1) (0 : Fin 1)) = FloatOps.uitofp .f32 (x (ix2 b s)) := by
  unfold maskCol
  show FloatOps.uitofp .f32 (shapeCast S16384x1x1 x shapeCasts_S4x4096_S16384x1x1 (ix3 n (0 : Fin 1) (0 : Fin 1))) = _
  rw [shapeCast_apply x shapeCasts_S4x4096_S16384x1x1 (ix3 n (0 : Fin 1) (0 : Fin 1)) (ix2 b s)
      (by rw [Shape.rowMajor_val_two, Shape.rowMajor_val_three]
          show b.val * 4096 + s.val = (n.val * 1 + 0) * 1 + 0
          omega)]

/-- The q array as the region finds it. -/
theorem V_q (c : Dev nD) : (V m c main_v6 : S16384x16x64.Idx → Elt F .f32)
    = part ![0, 0, 0, 0, 0] slices_S4x4096x3x16x64_S4x4096x1x16x64_0_0_0_0_0 (m ((c : Thread nD τ).loc main_arg0)) := by
  show StableHlo.after hostOps0 (fun b => m (c, b)) (Proc.devRef .tc main_v6) = _
  after_results; rfl

/-- The k array as the region finds it. -/
theorem V_k (c : Dev nD) : (V m c main_v7 : S16384x16x64.Idx → Elt F .f32)
    = part ![0, 0, 1, 0, 0] slices_S4x4096x3x16x64_S4x4096x1x16x64_0_0_1_0_0 (m ((c : Thread nD τ).loc main_arg0)) := by
  show StableHlo.after hostOps0 (fun b => m (c, b)) (Proc.devRef .tc main_v7) = _
  after_results; rfl

/-- The v array as the region finds it. -/
theorem V_v (c : Dev nD) : (V m c main_v8 : S16384x16x64.Idx → Elt F .f32)
    = part ![0, 0, 2, 0, 0] slices_S4x4096x3x16x64_S4x4096x1x16x64_0_0_2_0_0 (m ((c : Thread nD τ).loc main_arg0)) := by
  show StableHlo.after hostOps0 (fun b => m (c, b)) (Proc.devRef .tc main_v8) = _
  after_results; rfl

/-- The mask column as the region finds it. -/
theorem V_mask (c : Dev nD) : (V m c main_v10 : S16384x1x1.Idx → Elt F .f32)
    = maskCol (m ((c : Thread nD τ).loc main_arg1)) := by
  show StableHlo.after hostOps0 (fun b => m (c, b)) (Proc.devRef .tc main_v10) = _
  after_results; rfl

end Cert.KernelIdeal.Hand

end
-- ==== Proof.BodyAttention.lean ====
/-
  One block of 1024 tokens through the body's arithmetic, read at one entry.

  The body forms, for every token t of the block at once, the 16 × 16 matrix of products of rows of q with rows of k
  (a batched product contracting the 64 features), scales it, takes each row's maximum from −∞ and once more
  against −∞, subtracts it, exponentiates, divides by the row's sum, multiplies the 16 × 16 matrix of quotients into v
  (a batched product contracting the second heads index) and multiplies by the token's mask value. Every step
  acts on token t's own entries only, so the entry (t, h, d) of the result is the per-token attention of
  Proof/Attention.lean at the three 16 × 64 slices of q, k, v at t and the mask value at t.

  The lemmas below read each step that is not entrywise at explicit coordinates: the two batched products as sums
  over the contracted coordinate, the two row reductions as a fold of max and a sum over the last coordinate, the
  keep-dimension broadcast of a [1024, 16] array along a new last axis, and the mask's broadcast over heads and features.
-/
import proofs.«148135_j14851996909855_1_alg».proof.Proof.Gen.KernelIdeal.Skeleton
import proofs.«148135_j14851996909855_1_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two batched products at an entry -/

/-- The product of q with k: batch axis 0 on both sides, the features axis 2 contracted on both. -/
abbrev DQK : DotDims S1024x16x64 S1024x16x64 S1024x16x16 := dot_S1024x16x64_S1024x16x64_S1024x16x16_2_2_1_1_0_0
/-- The product of the weights with v: batch axis 0, the weights' axis 2 contracted with v's axis 1. -/
abbrev DPV : DotDims S1024x16x16 S1024x16x64 S1024x16x64 := dot_S1024x16x16_S1024x16x64_S1024x16x64_2_1_1_2_0_0

theorem qk_lhs_0 (i : S1024x16x16.Idx) (q : DQK.contr.Idx) : (DQK.lhsIdx i q 0).val = (i 0).val := by
  unfold DotDims.lhsIdx
  rw [dif_pos (show (0 : Fin S1024x16x64.rank) ∈ DQK.lhsBatch by decide)]
  rfl
theorem qk_lhs_1 (i : S1024x16x16.Idx) (q : DQK.contr.Idx) : (DQK.lhsIdx i q 1).val = (i 1).val := by
  unfold DotDims.lhsIdx
  rw [dif_neg (show ¬(1 : Fin S1024x16x64.rank) ∈ DQK.lhsBatch by decide),
    dif_pos (show (1 : Fin S1024x16x64.rank) ∈ DQK.lhsNonContracting by decide)]
  rfl
theorem qk_lhs_2 (i : S1024x16x16.Idx) (q : DQK.contr.Idx) : (DQK.lhsIdx i q 2).val = (q ⟨0, by decide⟩).val :=
  DQK.lhsIdx_val_of_single rfl i q
theorem qk_rhs_0 (i : S1024x16x16.Idx) (q : DQK.contr.Idx) : (DQK.rhsIdx i q 0).val = (i 0).val := by
  unfold DotDims.rhsIdx
  rw [dif_pos (show (0 : Fin S1024x16x64.rank) ∈ DQK.rhsBatch by decide)]
  rfl
theorem qk_rhs_1 (i : S1024x16x16.Idx) (q : DQK.contr.Idx) : (DQK.rhsIdx i q 1).val = (i 2).val := by
  unfold DotDims.rhsIdx
  rw [dif_neg (show ¬(1 : Fin S1024x16x64.rank) ∈ DQK.rhsBatch by decide),
    dif_pos (show (1 : Fin S1024x16x64.rank) ∈ DQK.rhsNonContracting by decide)]
  rfl
theorem qk_rhs_2 (i : S1024x16x16.Idx) (q : DQK.contr.Idx) : (DQK.rhsIdx i q 2).val = (q ⟨0, by decide⟩).val :=
  DQK.rhsIdx_val_of_single rfl i q

/-- Entry (t, h, g) of the product of q with k sums, over the feature d, row h of q at t times row g of k at t. -/
theorem qk_apply (l r : FVec Ideal S1024x16x64 .f32) (t : Fin 1024) (h g : Fin 16) :
    matmul dot_S1024x16x64_S1024x16x64_S1024x16x16_2_2_1_1_0_0 none l r (constant (F := Ideal) S1024x16x16 .f32 0x00000000#32) (ix3 t h g)
      = ∑ d : Fin 64, l (ix3 t h d) * r (ix3 t g d) := by
  refine (Ideal.matmul_constant_zero_apply DQK none l r (ix3 t h g)).trans ?_
  rw [← Equiv.sum_comp (contrEquiv1 DQK 64 rfl rfl).symm]
  refine Finset.sum_congr rfl fun k _ => ?_
  have hk := contrEquiv1_symm_val DQK 64 rfl rfl k
  have el : DQK.lhsIdx (ix3 t h g) ((contrEquiv1 DQK 64 rfl rfl).symm k) = ix3 t h k := funext fun a => Fin.ext (by
    match a with
    | ⟨0, _⟩ => exact qk_lhs_0 _ _
    | ⟨1, _⟩ => exact qk_lhs_1 _ _
    | ⟨2, _⟩ => exact (qk_lhs_2 _ _).trans hk)
  have er : DQK.rhsIdx (ix3 t h g) ((contrEquiv1 DQK 64 rfl rfl).symm k) = ix3 t g k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (i : S1024x16x64.Idx) (q : DPV.contr.Idx) : (DPV.lhsIdx i q 0).val = (i 0).val := by
  unfold DotDims.lhsIdx
  rw [dif_pos (show (0 : Fin S1024x16x16.rank) ∈ DPV.lhsBatch by decide)]
  rfl
theorem pv_lhs_1 (i : S1024x16x64.Idx) (q : DPV.contr.Idx) : (DPV.lhsIdx i q 1).val = (i 1).val := by
  unfold DotDims.lhsIdx
  rw [dif_neg (show ¬(1 : Fin S1024x16x16.rank) ∈ DPV.lhsBatch by decide),
    dif_pos (show (1 : Fin S1024x16x16.rank) ∈ DPV.lhsNonContracting by decide)]
  rfl
theorem pv_lhs_2 (i : S1024x16x64.Idx) (q : DPV.contr.Idx) : (DPV.lhsIdx i q 2).val = (q ⟨0, by decide⟩).val :=
  DPV.lhsIdx_val_of_single rfl i q
theorem pv_rhs_0 (i : S1024x16x64.Idx) (q : DPV.contr.Idx) : (DPV.rhsIdx i q 0).val = (i 0).val := by
  unfold DotDims.rhsIdx
  rw [dif_pos (show (0 : Fin S1024x16x64.rank) ∈ DPV.rhsBatch by decide)]
  rfl
theorem pv_rhs_1 (i : S1024x16x64.Idx) (q : DPV.contr.Idx) : (DPV.rhsIdx i q 1).val = (q ⟨0, by decide⟩).val :=
  DPV.rhsIdx_val_of_single rfl i q
theorem pv_rhs_2 (i : S1024x16x64.Idx) (q : DPV.contr.Idx) : (DPV.rhsIdx i q 2).val = (i 2).val := by
  unfold DotDims.rhsIdx
  rw [dif_neg (show ¬(2 : Fin S1024x16x64.rank) ∈ DPV.rhsBatch by decide),
    dif_pos (show (2 : Fin S1024x16x64.rank) ∈ DPV.rhsNonContracting by decide)]
  rfl

/-- Entry (t, h, d) of the product of a [1024, 16, 16] array with v sums, over the second heads index g, the
    array at (t, h, g) times v at (t, g, d). -/
theorem pv_apply (l : FVec Ideal S1024x16x16 .f32) (r : FVec Ideal S1024x16x64 .f32) (t : Fin 1024) (h : Fin 16) (d : Fin 64) :
    matmul dot_S1024x16x16_S1024x16x64_S1024x16x64_2_1_1_2_0_0 none l r (constant (F := Ideal) S1024x16x64 .f32 0x00000000#32) (ix3 t h d)
      = ∑ g : Fin 16, l (ix3 t h g) * r (ix3 t g d) := by
  refine (Ideal.matmul_constant_zero_apply DPV none l r (ix3 t h d)).trans ?_
  rw [← Equiv.sum_comp (contrEquiv1 DPV 16 rfl rfl).symm]
  refine Finset.sum_congr rfl fun k _ => ?_
  have hk := contrEquiv1_symm_val DPV 16 rfl rfl k
  have el : DPV.lhsIdx (ix3 t h d) ((contrEquiv1 DPV 16 rfl rfl).symm k) = ix3 t h k := funext fun a => Fin.ext (by
    match a with
    | ⟨0, _⟩ => exact pv_lhs_0 _ _
    | ⟨1, _⟩ => exact pv_lhs_1 _ _
    | ⟨2, _⟩ => exact (pv_lhs_2 _ _).trans hk)
  have er : DPV.rhsIdx (ix3 t h d) ((contrEquiv1 DPV 16 rfl rfl).symm k) = ix3 t k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## The two row reductions at an entry -/

/-- The index (t, h) with the coordinate g inserted on the reduced last axis is (t, h, g). -/
theorem lift_eq (t : Fin 1024) (h g : Fin 16) :
    reduces_S1024x16x16_S1024x16.lift (ix2 t h) g = ix3 t h g :=
  funext fun a => Fin.ext (by
    match a with
    | ⟨0, _⟩ => rfl
    | ⟨1, _⟩ => rfl
    | ⟨2, _⟩ => rfl)

/-- A row's maximum from −∞: the fold of max over the last coordinate. -/
theorem rowmax_apply (src : FVec Ideal S1024x16x16 .f32) (t : Fin 1024) (h : Fin 16) :
    multiReduction (F := Ideal) .maximumf [2] S1024x16 src 0xFF800000#32 reduces_S1024x16x16_S1024x16 (.inl rfl) rfl (ix2 t h)
      = (Finset.univ : Finset (Fin 16)).fold max (Ideal.ofBits .f32 0xFF800000#32) (fun g => src (ix3 t h g)) := by
  refine (Ideal.multiReduction_maximumf_single src 0xFF800000#32 reduces_S1024x16x16_S1024x16 (.inl rfl) rfl (ix2 t h)).trans ?_
  show (Finset.univ : Finset (Fin 16)).fold max (Ideal.ofBits .f32 0xFF800000#32)
      (fun g => src (reduces_S1024x16x16_S1024x16.lift (ix2 t h) g)) = _
  exact congrArg (fun f => (Finset.univ : Finset (Fin 16)).fold max (Ideal.ofBits .f32 0xFF800000#32) f)
    (funext fun g => congrArg src (lift_eq t h g))

/-- A row's sum: the sum over the last coordinate. -/
theorem rowsum_apply (src : FVec Ideal S1024x16x16 .f32) (t : Fin 1024) (h : Fin 16) :
    multiReduction (F := Ideal) .add [2] S1024x16 src 0x00000000#32 reduces_S1024x16x16_S1024x16 (.inl rfl) rfl (ix2 t h)
      = ∑ g : Fin 16, src (ix3 t h g) := by
  refine (Ideal.multiReduction_add_single src 0x00000000#32 reduces_S1024x16x16_S1024x16 (.inl rfl) rfl (ix2 t h)).trans ?_
  show ∑ g : Fin 16, src (reduces_S1024x16x16_S1024x16.lift (ix2 t h) g) = _
  exact Finset.sum_congr rfl fun g _ => congrArg src (lift_eq t h g)

/-! ## The broadcasts at an entry -/

section Layout
variable {α : Type}

/-- A [1024, 16] array given a unit last axis and broadcast along it reads, at (t, h, g), the array at (t, h). -/
theorem keepdims_apply (v : S1024x16.Idx → α) (t : Fin 1024) (h g : Fin 16) :
    broadcastTo S1024x16x16 (shapeCast S1024x16x1 v shapeCasts_S1024x16_S1024x16x1) broadcasts_S1024x16x1_S1024x16x16 (ix3 t h g)
      = v (ix2 t h) := by
  refine (broadcastTo_apply _ broadcasts_S1024x16x1_S1024x16x16 (ix3 t h g) (ix3 t h (0 : Fin 1)) fun a => ?_).trans ?_
  · match a with
    | ⟨0, _⟩ => rfl
    | ⟨1, _⟩ => rfl
    | ⟨2, _⟩ => rfl
  · refine shapeCast_apply v shapeCasts_S1024x16_S1024x16x1 (ix3 t h (0 : Fin 1)) (ix2 t h) ?_
    rw [Shape.rowMajor_val_two, Shape.rowMajor_val_three]
    show t.val * 16 + h.val = (t.val * 16 + h.val) * 1 + 0
    omega

/-- The mask block [1024, 1, 1] broadcast over heads and features reads, at (t, h, d), the block at (t, 0, 0). -/
theorem mask_apply (v : S1024x1x1.Idx → α) (t : Fin 1024) (h : Fin 16) (d : Fin 64) :
    broadcastTo S1024x16x64 v broadcasts_S1024x1x1_S1024x16x64 (ix3 t h d) = v (ix3 t (0 : Fin 1) (0 : Fin 1)) := by
  refine broadcastTo_apply v broadcasts_S1024x1x1_S1024x16x64 (ix3 t h d) (ix3 t (0 : Fin 1) (0 : Fin 1)) fun a => ?_
  match a with
  | ⟨0, _⟩ => rfl
  | ⟨1, _⟩ => rfl
  | ⟨2, _⟩ => rfl

end Layout

/-! ## Entrywise steps at an entry -/

/-- The exponential of a vector at an entry is the exponential of the entry. -/
theorem exp_apply {s : Shape} {φ : FTy} (a : FVec Ideal s φ) (i : s.Idx) : exp a i = Ideal.exp (a i) := rfl

/-- A scalar constant is the extended real its word encodes. -/
theorem scalar_ofBits (φ : FTy) (w : BitVec φ.bits) : Scalar.ofBits (F := Ideal) φ w = Ideal.ofBits φ w := rfl

/-! ## The stages of the body on a block, each read at an entry

Each stage is a function of the whole block; at token t it sees only token t's slices of q and k. -/

/-- The scaled products of rows of q with rows of k, for every token of the block. -/
def scores (x0 x1 : FVec Ideal S1024x16x64 .f32) : FVec Ideal S1024x16x16 .f32 :=
  mulf (matmul dot_S1024x16x64_S1024x16x64_S1024x16x16_2_2_1_1_0_0 none x0 x1 (constant (F := Ideal) S1024x16x16 .f32 0x00000000#32))
    (broadcast S1024x16x16 (Scalar.ofBits (F := Ideal) .f32 0x3E000000#32))

theorem scores_apply (x0 x1 : FVec Ideal S1024x16x64 .f32) (t : Fin 1024) (h g : Fin 16) :
    scores x0 x1 (ix3 t h g)
      = Cert.Attention.score (fun h' d' => x0 (ix3 t h' d')) (fun h' d' => x1 (ix3 t h' d')) h g := by
  unfold scores Cert.Attention.score Cert.Attention.scale
  rw [mulf_apply, broadcast_apply, scalar_ofBits, qk_apply x0 x1 t h g]

/-- Each row's maximum, from −∞ and once more against −∞. -/
def rowMaxes (x0 x1 : FVec Ideal S1024x16x64 .f32) : FVec Ideal S1024x16 .f32 :=
  maximumf (broadcast S1024x16 (Scalar.ofBits (F := Ideal) .f32 0xFF800000#32))
    (multiReduction (F := Ideal) .maximumf [2] S1024x16 (scores x0 x1) 0xFF800000#32 reduces_S1024x16x16_S1024x16 (.inl rfl) rfl)

theorem rowMaxes_apply (x0 x1 : FVec Ideal S1024x16x64 .f32) (t : Fin 1024) (h : Fin 16) :
    rowMaxes x0 x1 (ix2 t h)
      = Cert.Attention.rowMax (fun h' d' => x0 (ix3 t h' d')) (fun h' d' => x1 (ix3 t h' d')) h := by
  unfold rowMaxes Cert.Attention.rowMax Cert.Attention.negInf
  rw [maximumf_apply, broadcast_apply, scalar_ofBits, rowmax_apply (scores x0 x1) t h]
  exact congrArg (fun f => max (Ideal.ofBits .f32 0xFF800000#32)
      ((Finset.univ : Finset (Fin 16)).fold max (Ideal.ofBits .f32 0xFF800000#32) f))
    (funext fun g => scores_apply x0 x1 t h g)

/-- The exponentials of the scores less their row's maximum. -/
def weights (x0 x1 : FVec Ideal S1024x16x64 .f32) : FVec Ideal S1024x16x16 .f32 :=
  exp (subf (scores x0 x1)
    (broadcastTo S1024x16x16 (shapeCast S1024x16x1 (rowMaxes x0 x1) shapeCasts_S1024x16_S1024x16x1) broadcasts_S1024x16x1_S1024x16x16))

theorem weights_apply (x0 x1 : FVec Ideal S1024x16x64 .f32) (t : Fin 1024) (h g : Fin 16) :
    weights x0 x1 (ix3 t h g)
      = Cert.Attention.weight (fun h' d' => x0 (ix3 t h' d')) (fun h' d' => x1 (ix3 t h' d')) h g := by
  unfold weights Cert.Attention.weight
  rw [exp_apply, subf_apply, keepdims_apply (rowMaxes x0 x1) t h g, scores_apply x0 x1 t h g, rowMaxes_apply x0 x1 t h]

/-- The weights divided by their row's sum. -/
def probs (x0 x1 : FVec Ideal S1024x16x64 .f32) : FVec Ideal S1024x16x16 .f32 :=
  divf (weights x0 x1)
    (broadcastTo S1024x16x16
      (shapeCast S1024x16x1
        (multiReduction (F := Ideal) .add [2] S1024x16 (weights x0 x1) 0x00000000#32 reduces_S1024x16x16_S1024x16 (.inl rfl) rfl)
        shapeCasts_S1024x16_S1024x16x1)
      broadcasts_S1024x16x1_S1024x16x16)

theorem probs_apply (x0 x1 : FVec Ideal S1024x16x64 .f32) (t : Fin 1024) (h g : Fin 16) :
    probs x0 x1 (ix3 t h g)
      = Cert.Attention.prob (fun h' d' => x0 (ix3 t h' d')) (fun h' d' => x1 (ix3 t h' d')) h g := by
  unfold probs Cert.Attention.prob
  rw [divf_apply, keepdims_apply _ t h g, rowsum_apply (weights x0 x1) t h, weights_apply x0 x1 t h g]
  exact congrArg (Ideal.div _) (Finset.sum_congr rfl fun g' _ => weights_apply x0 x1 t h g')

/-! ## The payload -/

/-- The payload is the product of the quotients with v, times the broadcast mask: the changes of shape to the same
    shape are the identity. -/
theorem pay_eq (x0 x1 x2 : Vec Ideal S1024x16x64 .f32) (x3 : Vec Ideal S1024x1x1 .f32) :
    Gen.k0_pay1 (F := Ideal) x0 x1 x2 x3
      = mulf (matmul (φ₁ := .f32) (φ₂ := .f32) dot_S1024x16x16_S1024x16x64_S1024x16x64_2_1_1_2_0_0 none (probs x0 x1) x2
            (constant (F := Ideal) S1024x16x64 .f32 0x00000000#32))
          (broadcastTo S1024x16x64 (x3 : FVec Ideal S1024x1x1 .f32) broadcasts_S1024x1x1_S1024x16x64) := by
  have e0 : shapeCast S1024x16x64 x0 shapeCasts_S1024x16x64_S1024x16x64 = x0 := shapeCast_self x0 _
  have e1 : shapeCast S1024x16x64 x1 shapeCasts_S1024x16x64_S1024x16x64 = x1 := shapeCast_self x1 _
  have e2 : shapeCast S1024x16x64 x2 shapeCasts_S1024x16x64_S1024x16x64 = x2 := shapeCast_self x2 _
  have e3 : shapeCast S1024x1x1 x3 shapeCasts_S1024x1x1_S1024x1x1 = x3 := shapeCast_self x3 _
  unfold Gen.k0_pay1 probs weights rowMaxes scores
  rw [e0, e1, e2, e3]

/-- Entry (t, h, d) of the body's result on a block is the attention of token t: of its slices of q, k, v and its
    mask value. -/
theorem pay_apply (x0 x1 x2 : Vec Ideal S1024x16x64 .f32) (x3 : Vec Ideal S1024x1x1 .f32) (t : Fin 1024) (h : Fin 16) (d : Fin 64) :
    Cert.KernelIdeal.Gen.k0_pay1 (F := Ideal) x0 x1 x2 x3 (ix3 t h d)
      = Cert.Attention.attn (fun h' d' => x0 (ix3 t h' d')) (fun h' d' => x1 (ix3 t h' d')) (fun h' d' => x2 (ix3 t h' d'))
          (x3 (ix3 t (0 : Fin 1) (0 : Fin 1))) h d := by
  rw [pay_eq x0 x1 x2 x3, mulf_apply, pv_apply (probs x0 x1) x2 t h d, mask_apply x3 t h d]
  unfold Cert.Attention.attn
  exact congrArg (· * x3 (ix3 t (0 : Fin 1) (0 : Fin 1)))
    (Finset.sum_congr rfl fun g _ => congrArg (· * x2 (ix3 t g d)) (probs_apply x0 x1 t h g))

end Cert.KernelIdeal.Body

end
-- ==== Proof.KernelValue.lean ====
/-
  From blocks to the array: what the region leaves in its output array, and what the program returns.

  The grid has 16 points; point t stages rows 1024·t … 1024·t + 1023 of each of the four input arrays (all 16 × 64
  entries of a row, and the one mask entry) and writes back the same rows of the output. The body's result at row r
  of the block depends on row r of each input block only (per-token attention), so what point t writes back is block t
  of ONE function of the four arrays: `tok`, whose entry (n, h, d) is the attention of token n. The sixteen blocks tile
  the array (row n is in block n / 1024), so the array ends holding `tok` everywhere. The program then reshapes
  [16384, 16, 64] to [4, 4096, 16, 64]: entry (b, s, h, d) is the array's at (4096·b + s, h, d), and with the four arrays
  read back to the arguments that is `Cert.Attention.G`.
-/
import proofs.«148135_j14851996909855_1_alg».proof.Proof.Gen.KernelIdeal.Frame
import proofs.«148135_j14851996909855_1_alg».proof.Proof.HostPrefix
import proofs.«148135_j14851996909855_1_alg».proof.Proof.Attention
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-- Per-token attention over flattened arrays: entry (n, h, d) from rows n of q, k, v and the mask entry of token n. -/
def tok (Q K V : S16384x16x64.Idx → EReal) (M : S16384x1x1.Idx → EReal) : S16384x16x64.Idx → EReal := fun j =>
  Cert.Attention.attn (fun h d => Q (ix3 (j 0) h d)) (fun h d => K (ix3 (j 0) h d)) (fun h d => V (ix3 (j 0) h d))
    (M (ix3 (j 0) (0 : Fin 1) (0 : Fin 1))) (j 1) (j 2)

/-- The body's payload at row r of a block is per-token attention of row r of the input blocks. -/
def PayAt : Prop := ∀ (x0 x1 x2 : Vec Ideal S1024x16x64 .f32) (x3 : Vec Ideal S1024x1x1 .f32) (t : Fin 1024) (h : Fin 16) (d : Fin 64),
  k0_pay1 (F := Ideal) x0 x1 x2 x3 (ix3 t h d)
    = Cert.Attention.attn (fun h' d' => x0 (ix3 t h' d')) (fun h' d' => x1 (ix3 t h' d')) (fun h' d' => x2 (ix3 t h' d'))
        (x3 (ix3 t (0 : Fin 1) (0 : Fin 1))) h d

/-- So if row r of each input block is row n of its array, the payload at (r, h, d) is `tok` at (n, h, d). -/
theorem pay_block (hpay : PayAt) (x0 x1 x2 : Vec Ideal S1024x16x64 .f32) (x3 : Vec Ideal S1024x1x1 .f32)
    (Q K V : S16384x16x64.Idx → EReal) (M : S16384x1x1.Idx → EReal) (r : Fin 1024) (h : Fin 16) (d : Fin 64) (n : Fin 16384)
    (h0 : ∀ h' d', x0 (ix3 r h' d') = Q (ix3 n h' d')) (h1 : ∀ h' d', x1 (ix3 r h' d') = K (ix3 n h' d'))
    (h2 : ∀ h' d', x2 (ix3 r h' d') = V (ix3 n h' d')) (h3 : x3 (ix3 r (0 : Fin 1) (0 : Fin 1)) = M (ix3 n (0 : Fin 1) (0 : Fin 1)))
    (j : S16384x16x64.Idx) (hj : j = ix3 n h d) :
    k0_pay1 (F := Ideal) x0 x1 x2 x3 (ix3 r h d) = tok Q K V M j := by
  subst hj
  rw [hpay]
  unfold tok
  rw [show (fun h' d' => x0 (ix3 r h' d')) = fun h' d' => Q (ix3 n h' d') from funext fun h' => funext fun d' => h0 h' d',
    show (fun h' d' => x1 (ix3 r h' d')) = fun h' d' => K (ix3 n h' d') from funext fun h' => funext fun d' => h1 h' d',
    show (fun h' d' => x2 (ix3 r h' d')) = fun h' d' => V (ix3 n h' d') from funext fun h' => funext fun d' => h2 h' d', h3]

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the grid: every window's block index at point t is (t, 0, 0). -/
theorem idx_facts : ∀ t : Fin cfg0.N, win0_4.index t (0 : Fin 3) = t.val ∧ win0_4.index t (1 : Fin 3) = 0 ∧ win0_4.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The kernel's output array as one function of the arrays the region finds. -/
abbrev K (c : Dev nD) : S16384x16x64.Idx → EReal :=
  tok (V m c main_v6 : S16384x16x64.Idx → EReal) (V m c main_v7 : S16384x16x64.Idx → EReal)
    (V m c main_v8 : S16384x16x64.Idx → EReal) (V m c main_v10 : S16384x1x1.Idx → EReal)

/-- What point t writes back is block t of `K`. -/
theorem flushed_eq (hpay : PayAt) (c : Dev nD) (t : Fin cfg0.N) :
    (dats m 0 c).flushed 4 t = ((cfg0.win 4).blk t).view.read (Elt Ideal) (K m c) := by
  show (cfg0.win 4).cut (grid0.coords t) ((dats m 0 c).after 4 t) = _
  rw [after0_4]
  unfold out0_4
  rw [View.canon_unit_zero hz3]
  simp only [View.ld_unit_zero (S := S1024x16x64) hz3, View.ld_unit_zero (S := S1024x1x1) hz3]
  obtain ⟨e40, e41, e42, e00, e01, e02, e10, e11, e12, e20, e21, e22, e30, e31, e32⟩ := idx_facts t
  have hN : cfg0.N = 16 := N_0
  have ht := t.isLt
  funext y
  obtain ⟨r, h, d, rfl⟩ : ∃ (r : Fin 1024) (h : Fin 16) (d : Fin 64), y = ix3 r h d := ⟨y 0, y 1, y 2, eq_ix3 y⟩
  have hr := r.isLt; have hh := h.isLt; have hd := d.isLt
  have h1024 : t.val * 1024 + r.val < 16384 := by omega
  show k0_pay1 (F := Ideal) (iblk m c 0 t) (iblk m c 1 t) (iblk m c 2 t) (iblk m c 3 t) (ix3 r h d)
      = K m c (((cfg0.win 4).blk t).view.emb (ix3 r h d))
  refine pay_block hpay _ _ _ _ _ _ _ _ r h d ⟨t.val * 1024 + r.val, h1024⟩ ?_ ?_ ?_ ?_ _ ?_
  · intro h' d'
    have hh' := h'.isLt; have hd' := d'.isLt
    show (V m c main_v6 : S16384x16x64.Idx → EReal) (((cfg0.win 0).blk t).view.emb (ix3 r h' d')) = _
    refine congrArg _ (funext fun a => Fin.ext ?_)
    match a with
    | ⟨0, _⟩ => show win0_0.index t (0 : Fin 3) * 1024 + 1 * r.val = t.val * 1024 + r.val; omega
    | ⟨1, _⟩ => show win0_0.index t (1 : Fin 3) * 16 + 1 * h'.val = h'.val; omega
    | ⟨2, _⟩ => show win0_0.index t (2 : Fin 3) * 64 + 1 * d'.val = d'.val; omega
  · intro h' d'
    have hh' := h'.isLt; have hd' := d'.isLt
    show (V m c main_v7 : S16384x16x64.Idx → EReal) (((cfg0.win 1).blk t).view.emb (ix3 r h' d')) = _
    refine congrArg _ (funext fun a => Fin.ext ?_)
    match a with
    | ⟨0, _⟩ => show win0_1.index t (0 : Fin 3) * 1024 + 1 * r.val = t.val * 1024 + r.val; omega
    | ⟨1, _⟩ => show win0_1.index t (1 : Fin 3) * 16 + 1 * h'.val = h'.val; omega
    | ⟨2, _⟩ => show win0_1.index t (2 : Fin 3) * 64 + 1 * d'.val = d'.val; omega
  · intro h' d'
    have hh' := h'.isLt; have hd' := d'.isLt
    show (V m c main_v8 : S16384x16x64.Idx → EReal) (((cfg0.win 2).blk t).view.emb (ix3 r h' d')) = _
    refine congrArg _ (funext fun a => Fin.ext ?_)
    match a with
    | ⟨0, _⟩ => show win0_2.index t (0 : Fin 3) * 1024 + 1 * r.val = t.val * 1024 + r.val; omega
    | ⟨1, _⟩ => show win0_2.index t (1 : Fin 3) * 16 + 1 * h'.val = h'.val; omega
    | ⟨2, _⟩ => show win0_2.index t (2 : Fin 3) * 64 + 1 * d'.val = d'.val; omega
  · show (V m c main_v10 : S16384x1x1.Idx → EReal) (((cfg0.win 3).blk t).view.emb (ix3 r (0 : Fin 1) (0 : Fin 1))) = _
    refine congrArg _ (funext fun a => Fin.ext ?_)
    match a with
    | ⟨0, _⟩ => show win0_3.index t (0 : Fin 3) * 1024 + 1 * r.val = t.val * 1024 + r.val; omega
    | ⟨1, _⟩ => show win0_3.index t (1 : Fin 3) * 1 + 1 * 0 = 0; omega
    | ⟨2, _⟩ => show win0_3.index t (2 : Fin 3) * 1 + 1 * 0 = 0; omega
  · refine funext fun a => Fin.ext ?_
    match a with
    | ⟨0, _⟩ => show win0_4.index t (0 : Fin 3) * 1024 + 1 * r.val = t.val * 1024 + r.val; omega
    | ⟨1, _⟩ => show win0_4.index t (1 : Fin 3) * 16 + 1 * h.val = h.val; omega
    | ⟨2, _⟩ => show win0_4.index t (2 : Fin 3) * 64 + 1 * d.val = d.val; omega

/-- An index of the array is in point t's block iff each coordinate is in the block's range on its axis. -/
theorem mem_blk (t : Fin cfg0.N) (i : S16384x16x64.Idx) :
    i ∈ ((cfg0.win 4).blk t).view.set ↔ ∀ a : Fin 3, win0_4.index t a * S1024x16x64.size a ≤ (i a).val ∧ (i a).val < win0_4.index t a * S1024x16x64.size a + S1024x16x64.size a := by
  show i ∈ ((View.whole main_v11).slice (win0_4.rect t)).set ↔ _
  rw [View.set_slice_whole, Rect.mem_set_unit]
  exact Iff.rfl

/-- The sixteen blocks tile the array: row n is in block n / 1024. -/
theorem cover (i : S16384x16x64.Idx) :
    ∃ t : Fin cfg0.N, (cfg0.win 4).flush t = true ∧ i ∈ ((cfg0.win 4).blk t).view.set := by
  have hN : cfg0.N = 16 := N_0
  have h0 : (i 0).val < 16384 := (i 0).isLt
  have h1 : (i 1).val < 16 := (i 1).isLt
  have h2 : (i 2).val < 64 := (i 2).isLt
  refine ⟨⟨(i 0).val / 1024, by omega⟩, flush0_4 _, ?_⟩
  rw [mem_blk]
  obtain ⟨e40, e41, e42, -⟩ := idx_facts ⟨(i 0).val / 1024, by omega⟩
  intro a
  match a with
  | ⟨0, _⟩ => show win0_4.index _ (0 : Fin 3) * 1024 ≤ (i 0).val ∧ (i 0).val < win0_4.index _ (0 : Fin 3) * 1024 + 1024
              rw [e40]; show (i 0).val / 1024 * 1024 ≤ (i 0).val ∧ (i 0).val < (i 0).val / 1024 * 1024 + 1024; omega
  | ⟨1, _⟩ => show win0_4.index _ (1 : Fin 3) * 16 ≤ (i 1).val ∧ (i 1).val < win0_4.index _ (1 : Fin 3) * 16 + 16
              rw [e41]; omega
  | ⟨2, _⟩ => show win0_4.index _ (2 : Fin 3) * 64 ≤ (i 2).val ∧ (i 2).val < win0_4.index _ (2 : Fin 3) * 64 + 64
              rw [e42]; omega

/-- The array after the region is `K`. -/
theorem final (hpay : PayAt) (c : Dev nD) : (dats m 0 c).arrAt 4 cfg0.N = K m c :=
  (dats m 0 c).arrAt_eq_of_cover 4 (K m c) (fun t _ => flushed_eq m hpay c t) cover

/-- What the program returns: the region's output array reshaped to [4, 4096, 16, 64]. -/
theorem tail_eq (hpay : PayAt) (c : Dev nD) :
    (Pipeline.afterTail₀ cfgs (dats m) 0 (V0 m) [hostOps1] c main_v12 : S4x4096x16x64.Idx → EReal)
      = shapeCast S4x4096x16x64 (K m c) shapeCasts_S16384x16x64_S4x4096x16x64 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = K m c :=
    (Pipeline.withArrays_arr spec0 launch0.win.arr_inj c _ _ 4).trans (final m hpay c)
  rw [e]
  rfl

/-- Read back to the arguments, that is the attention array of the two arguments. -/
theorem result_G (c : Dev nD) :
    shapeCast S4x4096x16x64 (K m c) shapeCasts_S16384x16x64_S4x4096x16x64
      = Cert.Attention.G (m ((c : Thread nD τ).loc main_arg0)) (m ((c : Thread nD τ).loc main_arg1)) := by
  funext i
  obtain ⟨b, s, h, d, rfl⟩ : ∃ (b : Fin 4) (s : Fin 4096) (h : Fin 16) (d : Fin 64), i = ix4 b s h d :=
    ⟨i 0, i 1, i 2, i 3, eq_ix4 i⟩
  have hb := b.isLt; have hs := s.isLt
  have hlt : b.val * 4096 + s.val < 16384 := by omega
  rw [shapeCast_apply (K m c) shapeCasts_S16384x16x64_S4x4096x16x64 (ix4 b s h d) (ix3 (⟨b.val * 4096 + s.val, hlt⟩ : Fin 16384) h d)
      (by rw [Shape.rowMajor_val_three, Shape.rowMajor_val_four]; rfl)]
  have eq : ∀ (h' : Fin 16) (d' : Fin 64), (V m c main_v6 : S16384x16x64.Idx → EReal) (ix3 (⟨b.val * 4096 + s.val, hlt⟩ : Fin 16384) h' d')
      = (m ((c : Thread nD τ).loc main_arg0) : S4x4096x3x16x64.Idx → EReal) (ix5 b s (0 : Fin 3) h' d') := fun h' d' => by
    rw [V_q]; exact part_apply _ _ (0 : Fin 3) rfl _ b s _ rfl h' d'
  have ek : ∀ (h' : Fin 16) (d' : Fin 64), (V m c main_v7 : S16384x16x64.Idx → EReal) (ix3 (⟨b.val * 4096 + s.val, hlt⟩ : Fin 16384) h' d')
      = (m ((c : Thread nD τ).loc main_arg0) : S4x4096x3x16x64.Idx → EReal) (ix5 b s (1 : Fin 3) h' d') := fun h' d' => by
    rw [V_k]; exact part_apply _ _ (1 : Fin 3) rfl _ b s _ rfl h' d'
  have ev : ∀ (h' : Fin 16) (d' : Fin 64), (V m c main_v8 : S16384x16x64.Idx → EReal) (ix3 (⟨b.val * 4096 + s.val, hlt⟩ : Fin 16384) h' d')
      = (m ((c : Thread nD τ).loc main_arg0) : S4x4096x3x16x64.Idx → EReal) (ix5 b s (2 : Fin 3) h' d') := fun h' d' => by
    rw [V_v]; exact part_apply _ _ (2 : Fin 3) rfl _ b s _ rfl h' d'
  have em : (V m c main_v10 : S16384x1x1.Idx → EReal) (ix3 (⟨b.val * 4096 + s.val, hlt⟩ : Fin 16384) (0 : Fin 1) (0 : Fin 1))
      = FloatOps.uitofp (F := Ideal) .f32 ((m ((c : Thread nD τ).loc main_arg1) : S4x4096.Idx → BitVec 1) (ix2 b s)) := by
    rw [V_mask]; exact maskCol_apply _ b s _ rfl
  show Cert.Attention.attn (fun h' d' => (V m c main_v6 : S16384x16x64.Idx → EReal) (ix3 (⟨b.val * 4096 + s.val, hlt⟩ : Fin 16384) h' d'))
      (fun h' d' => (V m c main_v7 : S16384x16x64.Idx → EReal) (ix3 (⟨b.val * 4096 + s.val, hlt⟩ : Fin 16384) h' d'))
      (fun h' d' => (V m c main_v8 : S16384x16x64.Idx → EReal) (ix3 (⟨b.val * 4096 + s.val, hlt⟩ : Fin 16384) h' d'))
      ((V m c main_v10 : S16384x1x1.Idx → EReal) (ix3 (⟨b.val * 4096 + s.val, hlt⟩ : Fin 16384) (0 : Fin 1) (0 : Fin 1))) h d = _
  rw [funext fun h' => funext fun d' => eq h' d', funext fun h' => funext fun d' => ek h' d',
    funext fun h' => funext fun d' => ev h' d', em]
  rfl

/-- The kernel's run, read: it ends with its result at the attention array of its arguments, the arguments unchanged. -/
theorem run (hpay : PayAt) : θ_run defs (onTc (τ := τ) (main (F := Ideal))) ⟨m, fun _ => 0, ρ⟩ fun r => ∀ c : Dev nD,
      r.2.mem ((c.tc : Thread nD τ).loc main_v12)
        = Cert.Attention.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v12 (Pipeline.mem_restRefs_of main_v12 (by decide) (by decide))).trans
        ((tail_eq m hpay c).trans (result_G m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefAttention.lean ====
/-
  The reference program computes per-token attention.

  Its last stage, read at the index (b, s, h, d), is the attention of token (b, s) at head h and feature d:
  the three 16 × 64 slices of the first argument at (b, s, 0 | 1 | 2, ·, ·) are q, k, v; the scaled products of
  rows of q with rows of k are the scores; each row's maximum is taken from −∞ and once more against −∞; the
  weights are the exponentials of score minus row maximum; each is divided by its row's sum (taken from 0); the
  normalized weights are applied to v and the result is multiplied by the token's mask bit as a float.
  Every stage is read at an index built from literal coordinates, innermost stage first.
-/
import proofs.«148135_j14851996909855_1_alg».proof.Proof.Gen.ReferenceIdeal.Read
import proofs.«148135_j14851996909855_1_alg».proof.Proof.Attention
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

/-! ## The three slices of one token

A reshape that only drops the unit axis reads the slice at the same coordinates: the row-major position of
(b, s, h, d) in 4 × 4096 × 16 × 64 splits back, by division and remainder, into b, s, 0, h, d. -/

theorem q_at (x0 : (⟨S4x4096x3x16x64, .f32⟩ : BufTy).Contents (Elt Ideal)) (b : Fin 4) (s : Fin 4096) (h : Fin 16) (d : Fin 64) :
    val_main_v1 (F := Ideal) x0 (ix4 b s h d) = x0 (ix5 b s (0 : Fin 3) h d) := by
  rw [val_main_v1_apply, val_main_v0_apply]
  refine congrArg x0 (funext fun a => Fin.ext ?_)
  have hb := b.isLt; have hs := s.isLt; have hh := h.isLt; have hd := d.isLt
  match a with
  | ⟨0, _⟩ => show ((((b.val * 4096 + s.val) * 16 + h.val) * 64 + d.val) / 4194304) = b.val; omega
  | ⟨1, _⟩ => show ((((b.val * 4096 + s.val) * 16 + h.val) * 64 + d.val) / 1024 % 4096) = s.val; omega
  | ⟨2, _⟩ => rfl
  | ⟨3, _⟩ => show ((((b.val * 4096 + s.val) * 16 + h.val) * 64 + d.val) / 64 % 16) = h.val; omega
  | ⟨4, _⟩ => show ((((b.val * 4096 + s.val) * 16 + h.val) * 64 + d.val) % 64) = d.val; omega

theorem k_at (x0 : (⟨S4x4096x3x16x64, .f32⟩ : BufTy).Contents (Elt Ideal)) (b : Fin 4) (s : Fin 4096) (h : Fin 16) (d : Fin 64) :
    val_main_v3 (F := Ideal) x0 (ix4 b s h d) = x0 (ix5 b s (1 : Fin 3) h d) := by
  rw [val_main_v3_apply, val_main_v2_apply]
  refine congrArg x0 (funext fun a => Fin.ext ?_)
  have hb := b.isLt; have hs := s.isLt; have hh := h.isLt; have hd := d.isLt
  match a with
  | ⟨0, _⟩ => show ((((b.val * 4096 + s.val) * 16 + h.val) * 64 + d.val) / 4194304) = b.val; omega
  | ⟨1, _⟩ => show ((((b.val * 4096 + s.val) * 16 + h.val) * 64 + d.val) / 1024 % 4096) = s.val; omega
  | ⟨2, _⟩ => rfl
  | ⟨3, _⟩ => show ((((b.val * 4096 + s.val) * 16 + h.val) * 64 + d.val) / 64 % 16) = h.val; omega
  | ⟨4, _⟩ => show ((((b.val * 4096 + s.val) * 16 + h.val) * 64 + d.val) % 64) = d.val; omega

theorem v_at (x0 : (⟨S4x4096x3x16x64, .f32⟩ : BufTy).Contents (Elt Ideal)) (b : Fin 4) (s : Fin 4096) (h : Fin 16) (d : Fin 64) :
    val_main_v5 (F := Ideal) x0 (ix4 b s h d) = x0 (ix5 b s (2 : Fin 3) h d) := by
  rw [val_main_v5_apply, val_main_v4_apply]
  refine congrArg x0 (funext fun a => Fin.ext ?_)
  have hb := b.isLt; have hs := s.isLt; have hh := h.isLt; have hd := d.isLt
  match a with
  | ⟨0, _⟩ => show ((((b.val * 4096 + s.val) * 16 + h.val) * 64 + d.val) / 4194304) = b.val; omega
  | ⟨1, _⟩ => show ((((b.val * 4096 + s.val) * 16 + h.val) * 64 + d.val) / 1024 % 4096) = s.val; omega
  | ⟨2, _⟩ => rfl
  | ⟨3, _⟩ => show ((((b.val * 4096 + s.val) * 16 + h.val) * 64 + d.val) / 64 % 16) = h.val; omega
  | ⟨4, _⟩ => show ((((b.val * 4096 + s.val) * 16 + h.val) * 64 + d.val) % 64) = d.val; omega

/-! ## The scores

Entry (b, s, h, g) of the batched product contracts the feature axis: row h of q against row g of k. -/

theorem score_at (x0 : (⟨S4x4096x3x16x64, .f32⟩ : BufTy).Contents (Elt Ideal)) (b : Fin 4) (s : Fin 4096) (h g : Fin 16) :
    val_main_v8 (F := Ideal) x0 (ix4 b s h g)
      = score (fun h d => x0 (ix5 b s (0 : Fin 3) h d)) (fun h d => x0 (ix5 b s (1 : Fin 3) h d)) h g := by
  have el : ∀ k : Fin 64, lidx_main_v6 (ix4 b s h g) k = ix4 b s h k := fun k => funext fun a => Fin.ext (by
    match a with | ⟨0, _⟩ => rfl | ⟨1, _⟩ => rfl | ⟨2, _⟩ => rfl | ⟨3, _⟩ => rfl)
  have er : ∀ k : Fin 64, ridx_main_v6 (ix4 b s h g) k = ix4 b s g k := fun k => funext fun a => Fin.ext (by
    match a with | ⟨0, _⟩ => rfl | ⟨1, _⟩ => rfl | ⟨2, _⟩ => rfl | ⟨3, _⟩ => rfl)
  rw [val_main_v8_apply, val_main_v6_apply, val_main_v7_apply, val_main_cst_apply]
  simp only [el, er, q_at, k_at]
  rfl

/-! ## The row maxima

The maximum over the last axis, from −∞, is a fold of `max` over that axis's sixteen coordinates; the program
then takes it once more against −∞. -/

theorem reduces3 : S4x4096x16x16.Reduces [3] S4x4096x16 := by decide

theorem lift_at (b : Fin 4) (s : Fin 4096) (h g : Fin 16) : reduces3.lift (ix3 b s h) g = ix4 b s h g :=
  funext fun a => Fin.ext (by
    match a with | ⟨0, _⟩ => rfl | ⟨1, _⟩ => rfl | ⟨2, _⟩ => rfl | ⟨3, _⟩ => rfl)

theorem reduce_max_at (y : S4x4096x16x16.Idx → EReal) (c : S_.Idx → EReal) (b : Fin 4) (s : Fin 4096) (h : Fin 16) :
    Host.reduce (FloatOps.maximumf (F := Ideal) (φ := .f32)) y c reducesTo_S4x4096x16x16_S4x4096x16_d3 h_S_ (ix3 b s h)
      = (Finset.univ : Finset (Fin 16)).fold max (c (Shape.Idx.first h_S_)) (fun g => y (ix4 b s h g)) := by
  rw [Host.reduce_eq_fold_single _ y c reducesTo_S4x4096x16x16_S4x4096x16_d3 reduces3 h_S_ (ix3 b s h)]
  have e : (y ∘ reduces3.lift (ix3 b s h)) = fun g : Fin 16 => y (ix4 b s h g) :=
    funext fun g => congrArg y (lift_at b s h g)
  rw [e]
  rfl

theorem max_at (x0 : (⟨S4x4096x3x16x64, .f32⟩ : BufTy).Contents (Elt Ideal)) (b : Fin 4) (s : Fin 4096) (h : Fin 16) :
    val_main_v11 (F := Ideal) x0 (ix3 b s h)
      = rowMax (fun h d => x0 (ix5 b s (0 : Fin 3) h d)) (fun h d => x0 (ix5 b s (1 : Fin 3) h d)) h := by
  rw [val_main_v11_apply, val_main_v10_apply, val_main_cst_1_apply]
  unfold val_main_v9
  rw [reduce_max_at, val_main_cst_0_apply]
  simp only [score_at]
  rfl

/-! ## The weights, their row sums, the normalized weights -/

theorem weight_at (x0 : (⟨S4x4096x3x16x64, .f32⟩ : BufTy).Contents (Elt Ideal)) (b : Fin 4) (s : Fin 4096) (h g : Fin 16) :
    val_main_v15 (F := Ideal) x0 (ix4 b s h g)
      = weight (fun h d => x0 (ix5 b s (0 : Fin 3) h d)) (fun h d => x0 (ix5 b s (1 : Fin 3) h d)) h g := by
  have e : idx_main_v12 (idx_main_v13 (ix4 b s h g)) = ix3 b s h := funext fun a => Fin.ext (by
    match a with | ⟨0, _⟩ => rfl | ⟨1, _⟩ => rfl | ⟨2, _⟩ => rfl)
  rw [val_main_v15_apply, val_main_v14_apply, val_main_v13_apply, val_main_v12_apply, e, score_at, max_at]
  rfl

/-- The row sum starts from the zero word, which is 0. -/
theorem denom_at (x0 : (⟨S4x4096x3x16x64, .f32⟩ : BufTy).Contents (Elt Ideal)) (b : Fin 4) (s : Fin 4096) (h g : Fin 16) :
    val_main_v18 (F := Ideal) x0 (ix4 b s h g)
      = ∑ g' : Fin 16, weight (fun h d => x0 (ix5 b s (0 : Fin 3) h d)) (fun h d => x0 (ix5 b s (1 : Fin 3) h d)) h g' := by
  have e : idx_main_v17 (idx_main_v18 (ix4 b s h g)) = ix3 b s h := funext fun a => Fin.ext (by
    match a with | ⟨0, _⟩ => rfl | ⟨1, _⟩ => rfl | ⟨2, _⟩ => rfl)
  have ek : ∀ k : Fin 16, idx_main_v16 (ix3 b s h) k = ix4 b s h k := fun k => funext fun a => Fin.ext (by
    match a with | ⟨0, _⟩ => rfl | ⟨1, _⟩ => rfl | ⟨2, _⟩ => rfl | ⟨3, _⟩ => rfl)
  rw [val_main_v18_apply, val_main_v17_apply, e, val_main_v16_apply, val_main_cst_2_apply, Ideal.ofBits_def,
    Ideal.ofBits_zero_f32, zero_add]
  simp only [ek, weight_at]

theorem prob_at (x0 : (⟨S4x4096x3x16x64, .f32⟩ : BufTy).Contents (Elt Ideal)) (b : Fin 4) (s : Fin 4096) (h g : Fin 16) :
    val_main_v19 (F := Ideal) x0 (ix4 b s h g)
      = prob (fun h d => x0 (ix5 b s (0 : Fin 3) h d)) (fun h d => x0 (ix5 b s (1 : Fin 3) h d)) h g := by
  rw [val_main_v19_apply, weight_at, denom_at]
  rfl

/-! ## The mask, and the result -/

theorem mask_at (x1 : (⟨S4x4096, .i1⟩ : BufTy).Contents (Elt Ideal)) (b : Fin 4) (s : Fin 4096) (h : Fin 16) (d : Fin 64) :
    val_main_v23 (F := Ideal) x1 (ix4 b s h d) = FloatOps.uitofp (F := Ideal) .f32 (x1 (ix2 b s)) := by
  have e : idx_main_v21 (idx_main_v23 (ix4 b s h d)) = ix2 b s := funext fun a => Fin.ext (by
    match a with | ⟨0, _⟩ => rfl | ⟨1, _⟩ => rfl)
  rw [val_main_v23_apply, val_main_v22_apply, val_main_v21_apply, e]

theorem out_at (x0 : (⟨S4x4096x3x16x64, .f32⟩ : BufTy).Contents (Elt Ideal)) (x1 : (⟨S4x4096, .i1⟩ : BufTy).Contents (Elt Ideal))
    (b : Fin 4) (s : Fin 4096) (h : Fin 16) (d : Fin 64) :
    val_main_v24 (F := Ideal) x0 x1 (ix4 b s h d)
      = attn (fun h d => x0 (ix5 b s (0 : Fin 3) h d)) (fun h d => x0 (ix5 b s (1 : Fin 3) h d))
          (fun h d => x0 (ix5 b s (2 : Fin 3) h d)) (FloatOps.uitofp (F := Ideal) .f32 (x1 (ix2 b s))) h d := by
  have el : ∀ k : Fin 16, lidx_main_v20 (ix4 b s h d) k = ix4 b s h k := fun k => funext fun a => Fin.ext (by
    match a with | ⟨0, _⟩ => rfl | ⟨1, _⟩ => rfl | ⟨2, _⟩ => rfl | ⟨3, _⟩ => rfl)
  have er : ∀ k : Fin 16, ridx_main_v20 (ix4 b s h d) k = ix4 b s k d := fun k => funext fun a => Fin.ext (by
    match a with | ⟨0, _⟩ => rfl | ⟨1, _⟩ => rfl | ⟨2, _⟩ => rfl | ⟨3, _⟩ => rfl)
  rw [val_main_v24_apply, val_main_v20_apply, mask_at]
  simp only [el, er, prob_at, v_at]
  rfl

/-- The reference's result array is the attention array `G` of its two arguments. -/
theorem ref_eq (x0 : (⟨S4x4096x3x16x64, .f32⟩ : BufTy).Contents (Elt Ideal)) (x1 : (⟨S4x4096, .i1⟩ : BufTy).Contents (Elt Ideal)) :
    Cert.ReferenceIdeal.Read.val_main_v24 (F := Ideal) x0 x1 = Cert.Attention.G x0 x1 := by
  funext i
  obtain ⟨b, s, h, d, rfl⟩ : ∃ (b : Fin 4) (s : Fin 4096) (h : Fin 16) (d : Fin 64), i = ix4 b s h d :=
    ⟨i 0, i 1, i 2, i 3, eq_ix4 i⟩
  exact out_at x0 x1 b s h d

end Cert.ReferenceIdeal.RefValue

end
-- ==== Proof.lean ====
/-
  The kernel and its reference compute the same attention array.

  Both programs take a packed array qkv[4, 4096, 3, 16, 64] and mask bits [4, 4096], and for every token (b, s)
  attend over the token's own 16 heads: the scores are the products of the rows of q = qkv(b, s, 0) with the rows
  of k = qkv(b, s, 1), scaled by 2⁻³; a softmax over the second heads index (row maximum from −∞, exponentials,
  row sum, quotient) is applied to v = qkv(b, s, 2); the result is multiplied by the token's mask bit as a float
  (`Cert.Attention.G`, Proof/Attention.lean).

  The reference does this on the whole 4-axis arrays (Proof/RefAttention.lean reads its stages at an index). The
  kernel flattens the two token axes, runs 16 grid points of 1024 tokens each, and reshapes back: its body's result
  at a token depends on that token's rows only (Proof/BodyAttention.lean), so the sixteen written blocks are the
  blocks of one array, they tile it, and the closing reshape undoes the flattening (Proof/HostPrefix.lean,
  Proof/KernelValue.lean). On the extended reals the two programs apply the same operations in the same order —
  a product summed into a zero accumulator is the plain sum, a row maximum is a fold of max from −∞ on either
  side, the row sum starts from 0 — so the results agree entry by entry, with no appeal to the inputs being finite.

  The three frames are the generated ones (the reference's is its run with the result dropped); the idealized
  kernel differs from the kernel by no rewrite, so `preserves` is trivial.
-/
import proofs.«148135_j14851996909855_1_alg».proof.Defs
import proofs.«148135_j14851996909855_1_alg».proof.Proof.Gen.Kernel
import proofs.«148135_j14851996909855_1_alg».proof.Proof.Gen.Kernel.Skeleton
import proofs.«148135_j14851996909855_1_alg».proof.Proof.Gen.Kernel.Launch
import proofs.«148135_j14851996909855_1_alg».proof.Proof.Gen.Kernel.Points
import proofs.«148135_j14851996909855_1_alg».proof.Proof.Gen.Kernel.Frame
import proofs.«148135_j14851996909855_1_alg».proof.Proof.Gen.KernelIdeal
import proofs.«148135_j14851996909855_1_alg».proof.Proof.Gen.KernelIdeal.Skeleton
import proofs.«148135_j14851996909855_1_alg».proof.Proof.Gen.KernelIdeal.Launch
import proofs.«148135_j14851996909855_1_alg».proof.Proof.Gen.KernelIdeal.Points
import proofs.«148135_j14851996909855_1_alg».proof.Proof.Gen.KernelIdeal.Frame
import proofs.«148135_j14851996909855_1_alg».proof.Proof.Gen.ReferenceIdeal
import proofs.«148135_j14851996909855_1_alg».proof.Proof.Gen.Pre_finite_inputs
import proofs.«148135_j14851996909855_1_alg».proof.Proof.Gen.ReferenceIdeal.Run
import proofs.«148135_j14851996909855_1_alg».proof.Proof.Gen.ReferenceIdeal.Read
import proofs.«148135_j14851996909855_1_alg».proof.Proof.Attention
import proofs.«148135_j14851996909855_1_alg».proof.Proof.HostPrefix
import proofs.«148135_j14851996909855_1_alg».proof.Proof.BodyAttention
import proofs.«148135_j14851996909855_1_alg».proof.Proof.KernelValue
import proofs.«148135_j14851996909855_1_alg».proof.Proof.RefAttention
import Idealize.ShloMosaic.Adequacy
import Idealize.ShloMosaic.Init

noncomputable section

namespace Cert.Proof

open Idealize.ShloMosaic Idealize.SL.Sem

/-- The kernel's frame, as generated. -/
theorem frame_kernel : Cert.frame_Kernel := fun m ρ _ => Cert.Kernel.Gen.frame m ρ

/-- The idealized kernel's frame, as generated. -/
theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the two arguments, both programs end with the attention array of the arguments:
    the kernel by its run read block by block, the reference by its run read stage by stage. -/
theorem algebraic : Cert.algebraic_KernelIdeal_ReferenceIdeal := by
  intro m ρ m' ρ' _ hagree
  refine ⟨fun c => Cert.Attention.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ Cert.KernelIdeal.Body.pay_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
